-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1x4096 : Shape := ⟨2, ![1, 4096]⟩
abbrev S512x4096 : Shape := ⟨2, ![512, 4096]⟩
abbrev S4096 : Shape := ⟨1, ![4096]⟩
abbrev S4096x1 : Shape := ⟨2, ![4096, 1]⟩
abbrev S512x1 : Shape := ⟨2, ![512, 1]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x1, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | .local _ .vmem, ⟨5, _⟩ => ⟨S1x4096, .f32⟩
  | .local _ .vmem, ⟨6, _⟩ => ⟨S512x1, .f32⟩
  | .local _ .vmem, ⟨7, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  broadcasts_S1x4096_S512x4096 : S1x4096.Broadcasts S512x4096
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)

variable [Facts₀]

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The mathematics of the claim, with no program in sight.

  The inputs are two 4096 × 4096 matrices `x` and `w` of extended reals. The reference forms the product
  `h[b, j] = ∑ k, x[b, k] · w[j, k]`, sums each row of it over `j` (from the initial value 0), and scales by a
  constant `u`. The kernel never forms the product: it first sums the rows of `w` — eight blocks of 512 rows, each
  block summed on its own and added to a running total that starts from 0 — into one row of column sums, then takes
  the dot product of each row of `x` with that row, and scales by the same `u` on the other side.

  Both are `u · ∑ k, x[b, k] · ∑ j, w[j, k]` once products distribute over sums, which they do on real numbers; on
  the extended reals the distributive law fails at the infinities, so the equation is stated for finite entries.
-/
import Idealize.ShloMosaic.PureOps.Ideal
import Idealize.ShloMosaic.Lib.ValueIdx

noncomputable section

namespace Cert.Spec

open Idealize.ShloMosaic Idealize.ShloMosaic.ValueIdx

/-- The shape of both input matrices. -/
abbrev Mat : Shape := ⟨2, ![4096, 4096]⟩

/-- Row `r` of block `t`: the matrix row `512 t + r`. -/
def blockRow (t : Fin 8) (r : Fin 512) : Fin 4096 := ⟨512 * t.val + r.val, by have := t.isLt; have := r.isLt; omega⟩

/-- The sum over the 512 rows of block `t` of `w`, at column `k`. -/
def blockSum (w : Mat.Idx → EReal) (t : Fin 8) (k : Fin 4096) : EReal :=
  ∑ r : Fin 512, w (ix2 (blockRow t r) k)

/-- The running column sum after blocks `0 … n`, in the order the kernel adds them: `((0 + B₀) + B₁) + … + Bₙ`. -/
def colAcc (w : Mat.Idx → EReal) : (n : ℕ) → n < 8 → Fin 4096 → EReal
  | 0, h => fun k => 0 + blockSum w ⟨0, h⟩ k
  | n + 1, h => fun k => colAcc w n (Nat.lt_of_succ_lt h) k + blockSum w ⟨n + 1, h⟩ k

/-- The column sums of `w` as the kernel accumulates them: the running sum after the last block. -/
def colSum (w : Mat.Idx → EReal) (k : Fin 4096) : EReal := colAcc w 7 (by decide) k

/-- Entry `b` of the kernel's result: the scale times the dot product of row `b` of `x` with the column sums. -/
def kernelVal (u : EReal) (x w : Mat.Idx → EReal) (b : Fin 4096) : EReal :=
  u * ∑ k : Fin 4096, x (ix2 b k) * colSum w k

/-- Entry `b` of the reference's result: row `b` of the full product, summed from 0, times the scale. -/
def refVal (u : EReal) (x w : Mat.Idx → EReal) (b : Fin 4096) : EReal :=
  (0 + ∑ j : Fin 4096, ∑ k : Fin 4096, x (ix2 b k) * w (ix2 j k)) * u

end Cert.Spec

end
-- ==== Proof.Algebra.lean ====
/-
  Pure algebra on the extended reals: for matrices with finite entries, the kernel's value (scale times the dot
  product of a row of x with the block-accumulated column sums of w) equals the reference's value (the row of the full
  product x · wᵀ summed from 0, times the scale).

  With finite entries both matrices are coercions of real matrices. Every sum and product that occurs is then the
  coercion of the same sum or product of reals, so the claim reduces to an identity on real numbers:
    ∑ k, x[b,k] · (∑ t < 8, ∑ r < 512, w[512 t + r, k]) = ∑ j < 4096, ∑ k, x[b,k] · w[j,k],
  which is distributivity, an exchange of the two summations, and the re-indexing j = 512 t + r of the 4096 rows by
  8 blocks of 512 rows. The scale is an arbitrary extended real; it only moves from one side of the product to the other.
-/
import proofs.«176538_j3556232921949_2_alg».proof.Proof.Spec

noncomputable section

namespace Cert.Spec

open Idealize.ShloMosaic Idealize.ShloMosaic.ValueIdx

/-- The coercion of the reals into the extended reals commutes with finite sums. -/
theorem coe_finset_sum {ι : Type} (s : Finset ι) (f : ι → ℝ) :
    ((∑ i ∈ s, f i : ℝ) : EReal) = ∑ i ∈ s, (f i : EReal) := by
  classical
  refine Finset.induction_on s ?_ ?_
  · simp only [Finset.sum_empty, EReal.coe_zero]
  · intro a s ha ih
    rw [Finset.sum_insert ha, Finset.sum_insert ha, EReal.coe_add, ih]

/-- The 4096 rows are the 8 blocks of 512 rows: (t, r) ↦ 512 t + r is a bijection, with inverse j ↦ (j / 512, j % 512). -/
def blockEquiv : Fin 8 × Fin 512 ≃ Fin 4096 where
  toFun p := blockRow p.1 p.2
  invFun j := (⟨j.val / 512, by have := j.isLt; omega⟩, ⟨j.val % 512, by omega⟩)
  left_inv := by
    rintro ⟨t, r⟩
    have := t.isLt; have := r.isLt
    ext
    · show (512 * t.val + r.val) / 512 = t.val
      omega
    · show (512 * t.val + r.val) % 512 = r.val
      omega
  right_inv := by
    intro j
    ext
    show 512 * (j.val / 512) + j.val % 512 = j.val
    omega

/-- A sum over blocks and rows within a block is the sum over all 4096 rows. -/
theorem sum_blocks (f : Fin 4096 → ℝ) :
    ∑ t : Fin 8, ∑ r : Fin 512, f (blockRow t r) = ∑ j : Fin 4096, f j := by
  rw [← blockEquiv.sum_comp f, Fintype.sum_prod_type]
  rfl

/-- The block sum of a real matrix. -/
def blockSumR (w : Mat.Idx → ℝ) (t : Fin 8) (k : Fin 4096) : ℝ :=
  ∑ r : Fin 512, w (ix2 (blockRow t r) k)

/-- The block sum of a coerced real matrix is the coercion of the real block sum. -/
theorem blockSum_coe (w : Mat.Idx → ℝ) (t : Fin 8) (k : Fin 4096) :
    blockSum (fun i => (w i : EReal)) t k = ((blockSumR w t k : ℝ) : EReal) := by
  unfold blockSum blockSumR
  rw [coe_finset_sum]

/-- The running column sum after blocks 0 … n of a coerced real matrix is the coercion of the real sum of those
    n + 1 block sums: the initial 0 is absorbed, and each addition is an addition of reals. -/
theorem colAcc_coe (w : Mat.Idx → ℝ) (k : Fin 4096) : ∀ (n : ℕ) (h : n < 8),
    colAcc (fun i => (w i : EReal)) n h k
      = ((∑ t : Fin (n + 1), blockSumR w ⟨t.val, by have := t.isLt; omega⟩ k : ℝ) : EReal)
  | 0, h => by
      simp only [colAcc]
      rw [zero_add, blockSum_coe, Fin.sum_univ_one]
      rfl
  | n + 1, h => by
      simp only [colAcc]
      rw [Fin.sum_univ_castSucc, EReal.coe_add, colAcc_coe w k n (Nat.lt_of_succ_lt h), blockSum_coe]
      rfl

/-- The accumulated column sums of a coerced real matrix are the coercions of the real sums over all 8 blocks. -/
theorem colSum_coe (w : Mat.Idx → ℝ) (k : Fin 4096) :
    colSum (fun i => (w i : EReal)) k = ((∑ t : Fin 8, blockSumR w t k : ℝ) : EReal) := by
  unfold colSum
  rw [colAcc_coe]

/-- The identity on real numbers: distribute, exchange the summations, and re-index the rows by blocks. -/
theorem real_identity (x w : Mat.Idx → ℝ) (b : Fin 4096) :
    ∑ k : Fin 4096, x (ix2 b k) * ∑ t : Fin 8, blockSumR w t k
      = ∑ j : Fin 4096, ∑ k : Fin 4096, x (ix2 b k) * w (ix2 j k) := by
  rw [Finset.sum_comm]
  refine Finset.sum_congr rfl (fun k _ => ?_)
  rw [← Finset.mul_sum]
  congr 1
  exact sum_blocks (fun j => w (ix2 j k))

/-- For finite entries the kernel's value equals the reference's value. -/
theorem kernelVal_eq_refVal (u : EReal) (x w : Mat.Idx → EReal)
    (hx : ∀ i, ∃ r : ℝ, x i = (r : EReal)) (hw : ∀ i, ∃ r : ℝ, w i = (r : EReal)) (b : Fin 4096) :
    kernelVal u x w b = refVal u x w b := by
  choose x' hx' using hx
  choose w' hw' using hw
  obtain rfl : x = fun i => (x' i : EReal) := funext hx'
  obtain rfl : w = fun i => (w' i : EReal) := funext hw'
  unfold kernelVal refVal
  have hk : ∑ k : Fin 4096, (x' (ix2 b k) : EReal) * colSum (fun i => (w' i : EReal)) k
      = ((∑ k : Fin 4096, x' (ix2 b k) * ∑ t : Fin 8, blockSumR w' t k : ℝ) : EReal) := by
    rw [coe_finset_sum]
    refine Finset.sum_congr rfl (fun k _ => ?_)
    rw [colSum_coe, EReal.coe_mul]
  have hr : ∑ j : Fin 4096, ∑ k : Fin 4096, (x' (ix2 b k) : EReal) * (w' (ix2 j k) : EReal)
      = ((∑ j : Fin 4096, ∑ k : Fin 4096, x' (ix2 b k) * w' (ix2 j k) : ℝ) : EReal) := by
    rw [coe_finset_sum]
    refine Finset.sum_congr rfl (fun j _ => ?_)
    rw [coe_finset_sum]
    refine Finset.sum_congr rfl (fun k _ => ?_)
    rw [EReal.coe_mul]
  rw [hk, hr, zero_add, real_identity, mul_comm]

end Cert.Spec

end
-- ==== Proof.Finite.lean ====
/-
  The precondition "every float input is finite", read back at the ideal (extended-real) semantics.

  The printed predicate computes, for each of the two 4096×4096 arguments, the elementwise test
  |v| < +∞, folds the resulting bits by `and` over both axes starting from 1, and `and`s the two
  results. If the outcome is 1 then both folds are 1, hence every elementwise test is 1, hence no
  entry is ⊥ or ⊤: every entry is (the coercion of) a real number.
-/
import proofs.«176538_j3556232921949_2_alg».proof.Pre_finite_inputs
import Idealize.ShloMosaic.PureOps.Ideal
import Idealize.ShloMosaic.Lib.ReduceAll
import Idealize.ShloMosaic.Lib.ValueIdx

namespace Cert.Finite

open Idealize.ShloMosaic

/-- The pattern 0x7F800000 (exponent all ones, mantissa zero, sign clear) denotes +∞. -/
theorem inf_bits : Ideal.ofBits .f32 0x7F800000#32 = (⊤ : EReal) := by
  simp [Ideal.ofBits, Ideal.ieee]

/-- An extended real whose absolute value `max a (-a)` is strictly below +∞ is a real:
    for a = ⊥ the maximum is -⊥ = ⊤, for a = ⊤ it is ⊤, and ⊤ < ⊤ is false. -/
theorem real_of_abs_lt_inf (a : EReal)
    (h : Ideal.cmp .olt (max a (-a)) (Ideal.ofBits .f32 0x7F800000#32) = 1#1) :
    ∃ r : ℝ, a = (r : EReal) := by
  rw [inf_bits] at h
  induction a using EReal.rec with
  | bot => simp [Ideal.cmp] at h
  | coe r => exact ⟨r, rfl⟩
  | top => simp [Ideal.cmp] at h

/-- The rank-0 shape has exactly one index. -/
instance : Subsingleton Cert.Pre_finite_inputs.S_.Idx := ⟨fun a b => funext fun d => d.elim0⟩

theorem entries_real [Cert.Pre_finite_inputs.Facts]
    (x w : FVec Ideal Cert.Pre_finite_inputs.S4096x4096 .f32)
    (h : Cert.Pre_finite_inputs.fn (F := Ideal) x w = fun _ => 1#1) :
    (∀ i, ∃ r : ℝ, x i = (r : EReal)) ∧ (∀ i, ∃ r : ℝ, w i = (r : EReal)) := by
  -- the predicate's single output bit
  have h0 := congrFun h ValueIdx.ix0
  unfold Cert.Pre_finite_inputs.fn at h0
  dsimp only at h0
  -- a conjunction of two bits is 1 exactly when both are
  obtain ⟨hx, hw⟩ := IntOp.andi_eq_one.1 h0
  refine ⟨fun i => ?_, fun i => ?_⟩
  · -- a fold by `and` over all axes that is 1 met a 1 at every index
    have e := Host.reduce_andi_all _ _ _ _ _ hx i
    exact real_of_abs_lt_inf (x i) e
  · have e := Host.reduce_andi_all _ _ _ _ _ hw i
    exact real_of_abs_lt_inf (w i) e

end Cert.Finite
-- ==== Proof.KernelRun.lean ====
/-
  The idealized kernel's run, with its result array named.

  The program is two kernel launches in a row. The first leaves in `main_v0` whatever its write-backs leave
  (`W1`), the second reads that and leaves in `main_v1` whatever its own write-backs leave (`W2`); the two
  arguments are written by neither. Every weakly fair execution terminates, and at the end every unscoped buffer
  holds the last boundary's contents `W2`: in particular the result buffer, which is what this module reads off
  (the frame statement reads only the two arguments off the same final state).
-/
import proofs.«176538_j3556232921949_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two launches terminates without a fault; the result buffer ends at the last
    boundary's contents and the two arguments end as launched. -/
theorem run_W2 : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

/-- The result buffer's last contents are what the second launch's write-backs leave of its output window. -/
theorem W2_main_v1 (c : Dev nD) :
    W2 m ρ c (Proc.devRef .tc main_v1) = (dat1 (V1 m ρ) c).arrAt 2 cfg1.N := W2_arr m ρ c 2

/-- The second launch finds the first argument as launched: the first launch does not touch it. -/
theorem V1_main_arg0 (c : Dev nD) : V1 m ρ c main_arg0 = m ((c : Thread nD τ).loc main_arg0) :=
  (W1_of_ne m ρ c main_arg0 (by decide)).trans rfl

/-- The second launch finds in `main_v0` what the first launch's write-backs leave of its output window. -/
theorem V1_main_v0 (c : Dev nD) : V1 m ρ c main_v0 = (dat0 (V0 m ρ) c).arrAt 1 cfg0.N := W1_arr m ρ c 1

/-- The first launch finds the second argument as launched. -/
theorem V0_main_arg1 (c : Dev nD) : V0 m ρ c main_arg1 = m ((c : Thread nD τ).loc main_arg1) := rfl

end Cert.KernelIdeal.Run

end
-- ==== Proof.Colsum.lean ====
/-
  The first launch: what its output array holds at the end.

  Its output window is the one row `main_v0 : f32[1, 4096]`, the same block at all eight grid points, so the staging
  buffer is carried from point to point and written back once, after the last. Point 0 stores a row of zeros, reads
  it back and adds the column sums of the first 512-row block of the weight matrix; every later point adds its own
  block's column sums to what the point before left. So the buffer after point `n` is the running total
  `((0 + B₀) + B₁) + … + Bₙ` of the blocks' column sums, in that order, and the array ends at the total after point 7.
-/
import proofs.«176538_j3556232921949_2_alg».proof.Proof.Gen.KernelIdeal.Frame
import Idealize.ShloMosaic.Lib.Pipeline.Value
import Idealize.ShloMosaic.Lib.Tactic

set_option maxRecDepth 16384

noncomputable section

namespace Cert.KernelIdeal.Colsum

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The row of zeros the first point stores before accumulating. -/
abbrev zeroRow : Vec F S1x4096 .f32 := broadcast S1x4096 (Scalar.ofBits .f32 0x00000000#32)

/-- One accumulation step as the body computes it: the row held so far plus the column sums of a 512-row block. -/
abbrev step (acc : Vec F S1x4096 .f32) (blk : Vec F S512x4096 .f32) : Vec F S1x4096 .f32 := k0_pay2 acc blk

/-- At a later point the body leaves, in the staging buffer that held `xo`, one step from `xo` with the input block. -/
theorem out_B (c : Dev nD) (i : grid0.Coords) (a1 : Memref sig .tc .vmem S512x4096 .f32) (h1 : a1.IsWhole)
    (a2 : Memref sig .tc .vmem S1x4096 .f32) (h2 : a2.IsWhole) (hc : ¬cond0_0 i) (x : Vec F S512x4096 .f32) (xo : Vec F S1x4096 .f32) :
    out0_B_1 c i a1 h1 a2 h2 hc x xo = step xo x := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S1x4096) hz,
    View.ld_unit_zero (S := S512x4096) hz]

/-- At the first point the body stores the row of zeros, reads it back, and leaves one step from it. -/
theorem out_A (c : Dev nD) (i : grid0.Coords) (a1 : Memref sig .tc .vmem S512x4096 .f32) (h1 : a1.IsWhole)
    (a2 : Memref sig .tc .vmem S1x4096 .f32) (h2 : a2.IsWhole) (hc : cond0_0 i) (x : Vec F S512x4096 .f32) :
    out0_A_1 c i a1 h1 a2 h2 hc x = step zeroRow x := by
  unfold out0_A_1
  rw [View.read_writes_eq_canon _ _ _ (cover0_A_1 c i a1 h1 a2 h2 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S512x4096) hz]
  rfl

/-- The running total after point `n`: one step from the row of zeros with block 0, then one step per block. -/
def chain (c : Dev nD) : (n : ℕ) → n < cfg0.N → Vec F S1x4096 .f32
  | 0, h => step zeroRow (iblk0 V c 0 ⟨0, h⟩)
  | n + 1, h => step (chain c n (Nat.lt_of_succ_lt h)) (iblk0 V c 0 ⟨n + 1, h⟩)

/-- What the output's staging buffer holds after point `n` is the running total, by induction on the point. -/
theorem outsAt_eq (c : Dev nD) : ∀ (n : ℕ) (h : n < cfg0.N), outsAt0 V c n h = chain V c n h
  | 0, h => (outsAt0_A V c ⟨0, h⟩ rfl).trans (out_A ..)
  | n + 1, h => by
    have hN : cfg0.N = 8 := N_0
    have hB : ¬(⟨n + 1, h⟩ : Fin cfg0.N).val % 8 = 0 := by dsimp only; omega
    rw [outsAt0_B V c ⟨n + 1, h⟩ hB, out_B]
    show step (outsAt0 V c n _) _ = step (chain V c n _) _
    rw [outsAt_eq c n]

/-- The last point of the grid. -/
abbrev tLast : Fin cfg0.N := ⟨7, by rw [show cfg0.N = 8 from N_0]; decide⟩

/-- The total after the last point, as contents of the output array (its one block is the whole array). -/
abbrev total (c : Dev nD) : Buf (Elt F) ((c : Thread nD τ).loc main_v0) := chain V c 7 tLast.isLt

/-- The one write-back, after point 7, writes the total: block (0, 0) of the [1, 4096] array is the array. -/
theorem flushed_eq (c : Dev nD) (t : Fin cfg0.N) (hf : (cfg0.win 1).flush t = true) :
    (dat0 V c).flushed 1 t = ((cfg0.win 1).blk t).view.read (Elt F) (total V c) := by
  have hN : cfg0.N = 8 := N_0
  have h7 : t.val = 7 := by have := (flush0_1 t).mp hf; have := t.isLt; omega
  obtain rfl : t = tLast := Fin.ext h7
  show (cfg0.win 1).cut (grid0.coords tLast) ((dat0 V c).after 1 tLast) = _
  rw [after0_1, outsAt_eq]
  have hz' : (fun a => win0_1.index tLast a * main_v0.ty.shape.size a) = fun _ => 0 := funext fun a => by fin_cases a <;> decide
  exact (Memref.read_access_unit_zero (Elt F) main_v0 hz' (fun a => by rw [congrFun hz' a]; simp) (total V c)).symm

/-- So the output array ends holding the total: the last point's block covers every index of it. -/
theorem final (c : Dev nD) : (dat0 V c).arrAt 1 cfg0.N = total V c :=
  (dat0 V c).arrAt_eq_of_cover 1 (total V c) (flushed_eq V c) fun i =>
    ⟨tLast, (flush0_1 tLast).mpr rfl, by
      show i ∈ ((View.whole main_v0).slice (win0_1.rect tLast)).set
      rw [View.set_slice_whole, Rect.mem_set_unit]
      intro a
      have h0 : (i 0 : Nat) < 1 := (i 0).isLt
      have h1 : (i 1 : Nat) < 4096 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 4096 from by decide +kernel]; omega⟩

end Cert.KernelIdeal.Colsum

end
-- ==== Proof.Payloads.lean ====
/-
  The two kernel bodies' arithmetic, read entry by entry over the extended reals.

  The first body's stored row is the row held so far plus, column by column, the sum of the 512 rows of the input
  block. The second body's stored column is, row by row, a constant times the sum over the 4096 columns of the
  input block's entry times the (broadcast) row vector's entry.
-/
import proofs.«176538_j3556232921949_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Idealize.ShloMosaic Idealize.ShloMosaic.ValueIdx
open Cert.KernelIdeal Cert.KernelIdeal.Gen

/-- Summing a [512, 4096] block over its rows: the source index over column `k` with row `r` inserted is `(r, k)`. -/
theorem lift_rows (h : S512x4096.Reduces [0] S4096) (k : Fin 4096) (r : Fin 512) :
    h.lift (ix1 k) r = ix2 r k :=
  funext fun a => Fin.ext (by match a with | ⟨0, _⟩ => rfl | ⟨1, _⟩ => rfl)

/-- Summing a [512, 4096] block over its columns: the source index over row `p` with column `k` inserted is `(p, k)`. -/
theorem lift_cols (h : S512x4096.Reduces [1] S512) (p : Fin 512) (k : Fin 4096) :
    h.lift (ix1 p) k = ix2 p k :=
  funext fun a => Fin.ext (by match a with | ⟨0, _⟩ => rfl | ⟨1, _⟩ => rfl)

/-- A vector of 512 entries viewed as a [512, 1] column: entry `(p, q)` is entry `p`. -/
theorem column_apply {α : Type} (v : S512.Idx → α) (h : S512.ShapeCasts S512x1) (p : Fin 512) (q : Fin 1) :
    shapeCast S512x1 v h (ix2 p q) = v (ix1 p) :=
  shapeCast_apply v h _ _ (by
    have hq : q.val = 0 := by omega
    rw [Shape.rowMajor_val_two, Shape.rowMajor_val_one]
    show p.val = p.val * 1 + q.val
    rw [hq, Nat.mul_one, Nat.add_zero])

/-- A [1, 4096] row broadcast down 512 rows: entry `(p, k)` is the row's entry `k`. -/
theorem rows_apply {α : Type} (v : S1x4096.Idx → α) (h : S1x4096.Broadcasts S512x4096) (p : Fin 512) (k : Fin 4096) :
    broadcastTo S512x4096 v h (ix2 p k) = v (ix2 (0 : Fin 1) k) :=
  broadcastTo_apply v h _ _ (fun a => by
    match a with
    | ⟨0, _⟩ => rfl
    | ⟨1, _⟩ => rfl)

/-- One accumulation step at column `k`: the entry held so far plus the sum of the block's 512 entries in that column. -/
theorem step_apply (acc : Vec Ideal S1x4096 .f32) (blk : Vec Ideal S512x4096 .f32) (u : Fin 1) (k : Fin 4096) :
    k0_pay2 (F := Ideal) acc blk (ix2 u k) = acc (ix2 u k) + ∑ r : Fin 512, blk (ix2 r k) := by
  unfold k0_pay2
  rw [addf_apply, shapeCast_self, shapeCast_a_1a_apply]
  refine congrArg (_ + ·) ((Ideal.multiReduction_add_single blk _ _ _ _ (ix1 k)).trans
    (Finset.sum_congr rfl fun (r : Fin 512) _ => ?_))
  exact congrArg blk (lift_rows _ k r)

/-- The second body's column at row `p`: the constant times the dot product of the block's row `p` with the row vector. -/
theorem dot_apply (x0 : Vec Ideal S512x4096 .f32) (x1 : Vec Ideal S1x4096 .f32) (p : Fin 512) (q : Fin 1) :
    k1_pay1 (F := Ideal) x0 x1 (ix2 p q)
      = Ideal.ofBits .f32 0x3F800000#32 * ∑ k : Fin 4096, x0 (ix2 p k) * x1 (ix2 (0 : Fin 1) k) := by
  unfold k1_pay1
  rw [mulf_apply, broadcast_apply, column_apply]
  refine congrArg (_ * ·) ((Ideal.multiReduction_add_single _ _ _ _ _ (ix1 p)).trans
    (Finset.sum_congr rfl fun (k : Fin 4096) _ => ?_))
  rw [show reduces_S512x4096_S512.lift (ix1 p) k = ix2 p k from lift_cols _ p k, mulf_apply, rows_apply, shapeCast_self]

end Cert.KernelIdeal.Payloads

end
-- ==== Proof.ColsumValue.lean ====
/-
  The first launch's output, entry by entry: the column sums of the weight matrix in the kernel's order.

  Block `t` of the input window is rows `512 t … 512 t + 511` of the matrix the launch finds in `main_arg1`, so one
  accumulation step at column `k` adds the sum of those 512 entries of column `k`; the row of zeros contributes 0.
  By induction on the grid point the running total after point `n` is the specification's running column sum.
-/
import proofs.«176538_j3556232921949_2_alg».proof.Proof.Colsum
import proofs.«176538_j3556232921949_2_alg».proof.Proof.Payloads
import proofs.«176538_j3556232921949_2_alg».proof.Proof.Spec

set_option maxRecDepth 16384

noncomputable section

namespace Cert.KernelIdeal.ColsumValue

open Idealize.ShloMosaic Idealize.ShloMosaic.TcCoe Idealize.ShloMosaic.ValueIdx Idealize.SL.Sem
open Cert.KernelIdeal Cert.KernelIdeal.Gen Cert.KernelIdeal.Colsum Cert.KernelIdeal.Payloads

variable (V : (c : Dev nD) → (b : Ref sig .tc) → Buf (Elt Ideal) ((c : Thread nD τ).loc b))

/-- The weight matrix as the first launch finds it. -/
abbrev wMat (c : Dev nD) : Cert.Spec.Mat.Idx → EReal := V c main_arg1

/-- The input window's block index at point `t` is `(t, 0)`, decided over the grid. -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, k)` of the input block at point `t` is entry `(512 t + r, k)` of the weight matrix. -/
theorem block_apply (c : Dev nD) (t : Fin cfg0.N) (t' : Fin 8) (ht : t'.val = t.val) (r : Fin 512) (k : Fin 4096) :
    (iblk0 V c 0 t : S512x4096.Idx → EReal) (ix2 r k) = wMat V c (ix2 (Cert.Spec.blockRow t' r) k) := by
  obtain ⟨e0, e1⟩ := idx_facts t
  unfold iblk0
  rw [View.read_apply]
  show V c main_arg1 _ = V c main_arg1 _
  refine congrArg (V c main_arg1) (funext fun a => Fin.ext ?_)
  match a with
  | ⟨0, _⟩ =>
    show win0_0.index t (0 : Fin 2) * 512 + 1 * r.val = 512 * t'.val + r.val
    rw [e0, ht]; omega
  | ⟨1, _⟩ =>
    show win0_0.index t (1 : Fin 2) * 4096 + 1 * k.val = k.val
    rw [e1]; omega

/-- The row of zeros is zero at every column. -/
theorem zeroRow_apply (u : Fin 1) (k : Fin 4096) : (zeroRow (F := Ideal)) (ix2 u k) = (0 : EReal) := by
  show Ideal.ofBits .f32 0x00000000#32 = 0
  exact Ideal.ofBits_zero_f32

/-- One step with the block at point `t`, at column `k`: the entry so far plus the block's column sum. -/
theorem step_block (c : Dev nD) (acc : Vec Ideal S1x4096 .f32) (t : Fin cfg0.N) (t' : Fin 8) (ht : t'.val = t.val)
    (u : Fin 1) (k : Fin 4096) :
    step acc (iblk0 V c 0 t) (ix2 u k) = acc (ix2 u k) + Cert.Spec.blockSum (wMat V c) t' k := by
  unfold step
  rw [step_apply]
  unfold Cert.Spec.blockSum
  exact congrArg (_ + ·) (Finset.sum_congr rfl fun r _ => block_apply V c t t' ht r k)

/-- The running total after point `n`, at column `k`, is the specification's running column sum. -/
theorem chain_apply (c : Dev nD) (u : Fin 1) (k : Fin 4096) :
    ∀ (n : ℕ) (h : n < cfg0.N) (h' : n < 8), chain V c n h (ix2 u k) = Cert.Spec.colAcc (wMat V c) n h' k
  | 0, h, h' => by
    show step zeroRow (iblk0 V c 0 ⟨0, h⟩) (ix2 u k) = 0 + Cert.Spec.blockSum (wMat V c) ⟨0, h'⟩ k
    rw [step_block V c _ ⟨0, h⟩ ⟨0, h'⟩ rfl, zeroRow_apply]
  | n + 1, h, h' => by
    show step (chain V c n _) (iblk0 V c 0 ⟨n + 1, h⟩) (ix2 u k)
      = Cert.Spec.colAcc (wMat V c) n _ k + Cert.Spec.blockSum (wMat V c) ⟨n + 1, h'⟩ k
    rw [step_block V c _ ⟨n + 1, h⟩ ⟨n + 1, h'⟩ rfl, chain_apply c u k n _ (Nat.lt_of_succ_lt h')]

/-- The output array of the first launch, at column `k`: the column sum of the weight matrix in the kernel's order. -/
theorem final_apply (c : Dev nD) (u : Fin 1) (k : Fin 4096) :
    ((dat0 V c).arrAt 1 cfg0.N : S1x4096.Idx → EReal) (ix2 u k) = Cert.Spec.colSum (wMat V c) k := by
  rw [Colsum.final V c]
  exact chain_apply V c u k 7 _ (by decide)

end Cert.KernelIdeal.ColsumValue

end
-- ==== Proof.Matvec.lean ====
/-
  The second launch: what its output array holds at the end, entry by entry.

  Its grid has eight points; point `t` loads rows `512 t … 512 t + 511` of the matrix in `main_arg0` and the whole
  row vector in `main_v0`, and writes back rows `512 t … 512 t + 511` of the [4096, 1] output: row `p` of the block
  is the constant times the dot product of the loaded block's row `p` with the row vector. Every output row lies
  in exactly the block of point `row / 512`, so the blocks tile the output and the array ends holding, at row `b`,
  the constant times the dot product of row `b` of the matrix with the row vector.
-/
import proofs.«176538_j3556232921949_2_alg».proof.Proof.Gen.KernelIdeal.Frame
import proofs.«176538_j3556232921949_2_alg».proof.Proof.Payloads
import Idealize.ShloMosaic.Lib.Pipeline.Value

set_option maxRecDepth 16384

noncomputable section

namespace Cert.KernelIdeal.Matvec

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payloads

variable (V : (c : Dev nD) → (b : Ref sig .tc) → Buf (Elt Ideal) ((c : Thread nD τ).loc b))

theorem hz : (![0, 0] : Fin 2 → Nat) = fun _ => 0 := funext fun a => by fin_cases a <;> rfl

/-- The scale the body multiplies by, kept as the word the program prints. -/
abbrev scale : EReal := Ideal.ofBits .f32 0x3F800000#32

/-- The row of an index of the [4096, 1] output. -/
abbrev rowOf (i : S4096x1.Idx) : Fin 4096 := ⟨(i 0).val, idx2_lt0 i⟩

/-- The whole output as one function of the matrix and the row vector the launch finds. -/
def dotRows (x : S4096x4096.Idx → EReal) (v : S1x4096.Idx → EReal) : S4096x1.Idx → EReal :=
  fun i => scale * ∑ k : Fin 4096, x (ix2 (rowOf i) k) * v (ix2 (0 : Fin 1) k)

/-- The printed index maps over the grid: the matrix window and the output window are at block `(t, 0)`, the row
    vector's window at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- The body's one store covers the staging buffer, so the buffer holds the payload of the two loaded blocks. -/
theorem out_eq (x0 : Vec Ideal S512x4096 .f32) (x1 : Vec Ideal S1x4096 .f32) :
    out1_2 (F := Ideal) x0 x1 = k1_pay1 x0 x1 := by
  unfold out1_2
  rw [View.canon_unit_zero hz]
  simp only [View.ld_unit_zero (S := S512x4096) hz, View.ld_unit_zero (S := S1x4096) hz]

/-- Entry `(p, k)` of the matrix block at point `t` is entry `(512 t + p, k)` of the matrix. -/
theorem xblock_apply (c : Dev nD) (t : Fin cfg1.N) (p : Fin 512) (k : Fin 4096) (b : Fin 4096) (hb : b.val = 512 * t.val + p.val) :
    (iblk1 V c 0 t : S512x4096.Idx → EReal) (ix2 p k) = (V c main_arg0 : S4096x4096.Idx → EReal) (ix2 b k) := by
  obtain ⟨e0, e1, -, -, -, -⟩ := idx_facts t
  unfold iblk1
  rw [View.read_apply]
  show V c main_arg0 _ = V c main_arg0 _
  refine congrArg (V c main_arg0) (funext fun a => Fin.ext ?_)
  match a with
  | ⟨0, _⟩ =>
    show win1_0.index t (0 : Fin 2) * 512 + 1 * p.val = b.val
    rw [e0, hb]; omega
  | ⟨1, _⟩ =>
    show win1_0.index t (1 : Fin 2) * 4096 + 1 * k.val = k.val
    rw [e1]; omega

/-- The row vector's block at every point is the row vector. -/
theorem vblock_apply (c : Dev nD) (t : Fin cfg1.N) (k : Fin 4096) :
    (iblk1 V c 1 t : S1x4096.Idx → EReal) (ix2 (0 : Fin 1) k) = (V c main_v0 : S1x4096.Idx → EReal) (ix2 (0 : Fin 1) k) := by
  obtain ⟨-, -, e2, e3, -, -⟩ := idx_facts t
  unfold iblk1
  rw [View.read_apply]
  show V c main_v0 _ = V c main_v0 _
  refine congrArg (V c main_v0) (funext fun a => Fin.ext ?_)
  match a with
  | ⟨0, _⟩ =>
    show win1_1.index t (0 : Fin 2) * 1 + 1 * 0 = 0
    rw [e2]
  | ⟨1, _⟩ =>
    show win1_1.index t (1 : Fin 2) * 4096 + 1 * k.val = k.val
    rw [e3]; omega

/-- What point `t` writes back is block `t` of the whole-output function. -/
theorem flushed_eq (c : Dev nD) (t : Fin cfg1.N) :
    (dat1 V c).flushed 2 t = ((cfg1.win 2).blk t).view.read (Elt Ideal) (dotRows (V c main_arg0) (V c main_v0)) := by
  obtain ⟨-, -, -, -, e4, e5⟩ := idx_facts t
  have hN : t.val < 8 := lt_of_lt_of_eq t.isLt (show cfg1.N = 8 from N_1)
  show (cfg1.win 2).cut (grid1.coords t) ((dat1 V c).after 2 t) = _
  rw [after1_2, out_eq]
  funext j
  obtain ⟨p, q, rfl⟩ : ∃ (p : Fin 512) (q : Fin 1), j = ix2 p q := ⟨j 0, j 1, eq_ix2 j⟩
  rw [View.read_apply]
  show k1_pay1 (F := Ideal) (iblk1 V c 0 t) (iblk1 V c 1 t) (ix2 p q) = dotRows (V c main_arg0) (V c main_v0) (((cfg1.win 2).blk t).view.emb (ix2 p q))
  rw [dot_apply]
  unfold dotRows
  refine congrArg (scale * ·) (Finset.sum_congr rfl fun k _ => ?_)
  rw [vblock_apply V c t k]
  refine congrArg (· * _) (xblock_apply V c t p k _ ?_)
  show win1_2.index t (0 : Fin 2) * 512 + 1 * p.val = 512 * t.val + p.val
  rw [e4]; omega

/-- An index of the output is in point `t`'s block iff each coordinate is in the block's range on its axis. -/
theorem mem_blk (t : Fin cfg1.N) (i : S4096x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v1).slice (win1_2.rect t)).set ↔ _
  rw [View.set_slice_whole, Rect.mem_set_unit]
  exact Iff.rfl

/-- Every output row is in the block of the point `row / 512`. -/
theorem cover (i : S4096x1.Idx) : ∃ t : Fin cfg1.N, (cfg1.win 2).flush t = true ∧ i ∈ ((cfg1.win 2).blk t).view.set := by
  have hi0 : (i 0).val < 4096 := idx2_lt0 i
  have hi1 : (i 1).val < 1 := idx2_lt1 i
  have hN : cfg1.N = 8 := N_1
  refine ⟨⟨(i 0).val / 512, by rw [hN]; omega⟩, flush1_2 _, ?_⟩
  obtain ⟨-, -, -, -, e4, e5⟩ := idx_facts ⟨(i 0).val / 512, by rw [hN]; omega⟩
  rw [mem_blk]
  intro a
  match a with
  | ⟨0, _⟩ =>
    show win1_2.index _ (0 : Fin 2) * 512 ≤ (i 0).val ∧ (i 0).val < win1_2.index _ (0 : Fin 2) * 512 + 512
    rw [e4]; dsimp only; omega
  | ⟨1, _⟩ =>
    show win1_2.index _ (1 : Fin 2) * 1 ≤ (i 1).val ∧ (i 1).val < win1_2.index _ (1 : Fin 2) * 1 + 1
    rw [e5]; omega

/-- So the output array ends holding the whole-output function of what the launch found. -/
theorem final (c : Dev nD) : (dat1 V c).arrAt 2 cfg1.N = dotRows (V c main_arg0) (V c main_v0) :=
  (dat1 V c).arrAt_eq_of_cover 2 (dotRows (V c main_arg0) (V c main_v0)) (fun t _ => flushed_eq V c t) cover

end Cert.KernelIdeal.Matvec

end
-- ==== Proof.KernelValue.lean ====
/-
  The idealized kernel's result, entry by entry.

  The second launch leaves, at row `b` of the result, the constant times the dot product of row `b` of the first
  argument (which the first launch did not touch) with the row vector it found in `main_v0`; that row vector is
  what the first launch left there: the column sums of the second argument, in the kernel's order of addition.
  Together this is the specification's kernel value.
-/
import proofs.«176538_j3556232921949_2_alg».proof.Proof.KernelRun
import proofs.«176538_j3556232921949_2_alg».proof.Proof.ColsumValue
import proofs.«176538_j3556232921949_2_alg».proof.Proof.Matvec

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ) (ρ : Dev nD → PrngReg)

/-- Entry `(b, q)` of the result buffer's last contents is the specification's kernel value at row `b`. -/
theorem result_apply (c : Dev nD) (b : Fin 4096) (q : Fin 1) :
    (W2 m ρ c (Proc.devRef .tc main_v1) : S4096x1.Idx → EReal) (ix2 b q)
      = Cert.Spec.kernelVal Matvec.scale (m ((c : Thread nD τ).loc main_arg0)) (m ((c : Thread nD τ).loc main_arg1)) b := by
  rw [W2_main_v1, Matvec.final (V1 m ρ) c]
  unfold Matvec.dotRows Cert.Spec.kernelVal
  refine congrArg (Matvec.scale * ·) (Finset.sum_congr rfl fun (k : Fin 4096) _ => ?_)
  rw [V1_main_arg0, V1_main_v0, ColsumValue.final_apply (V0 m ρ) c 0 k]

end Cert.KernelIdeal.KernelValue

end
-- ==== Proof.RefValue.lean ====
/-
  The reference's result, entry by entry.

  Its host operations are a full matrix product `h[b, j] = ∑ k, x[b, k] · w[j, k]`, a sum of each row of `h` over
  `j` from the initial value 0, a relabelling of the 4096 sums as a [4096, 1] column, and a product with the
  constant. Read at row `b` this is the specification's reference value.
-/
import proofs.«176538_j3556232921949_2_alg».proof.Proof.Gen.ReferenceIdeal.Read
import proofs.«176538_j3556232921949_2_alg».proof.Proof.Spec
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- Entry `(b, q)` of the reference's result is the row sum of the full product at row `b`, times the constant. -/
theorem result_apply (x w : S4096x4096.Idx → EReal) (b : Fin 4096) (q : Fin 1) :
    val_main_v4 (F := Ideal) x w (ix2 b q) = Cert.Spec.refVal (Ideal.ofBits .f32 0x3F800000#32) x w b := by
  rw [val_main_v4_apply, val_main_v2_apply, val_main_v1_apply, val_main_v3_apply, val_main_cst_0_apply,
    val_main_cst_apply]
  unfold Cert.Spec.refVal
  simp only [Ideal.mulf_def, Ideal.ofBits_def, Ideal.ofBits_zero_f32]
  refine congrArg (fun s => (0 + s) * _) (Finset.sum_congr rfl fun (j : Fin 4096) _ => ?_)
  rw [val_main_v0_apply]
  refine Finset.sum_congr rfl fun (k : Fin 4096) _ => ?_
  have el : lidx_main_v0 (idx_main_v1 (idx_main_v2 (ix2 b q)) j) k = ix2 b k :=
    funext fun a => Fin.ext (by match a with | ⟨0, _⟩ => rfl | ⟨1, _⟩ => rfl)
  have er : ridx_main_v0 (idx_main_v1 (idx_main_v2 (ix2 b q)) j) k = ix2 j k :=
    funext fun a => Fin.ext (by match a with | ⟨0, _⟩ => rfl | ⟨1, _⟩ => rfl)
  rw [el, er]

end Cert.ReferenceIdeal.RefValue

end
-- ==== Proof.lean ====
/-
  The proof of `Cert.Claim`: the three programs run and leave their arguments alone, the idealized kernel is the
  kernel's own text read over the extended reals (nothing was rewritten), and the idealized kernel and the
  idealized reference end with equal results.

  The mathematics of the last claim. The reference computes, for each row `b`,
  `(0 + ∑ j, ∑ k, x[b, k] · w[j, k]) · 1`. The kernel computes `1 · ∑ k, x[b, k] · W[k]`, where `W[k]` is the
  sum of column `k` of `w`, accumulated over eight blocks of 512 rows. The two agree because a product distributes
  over a finite sum of REAL numbers and finite sums commute; on the extended reals distributivity fails at the
  infinities, so this is where the precondition (every input entry finite) is used. The constant is the same word on
  both sides and is never evaluated: it only changes sides of the product.

  The modules: Spec (both values as formulas), Algebra (the formulas agree on finite entries), Finite (the
  precondition makes every entry a real), KernelRun (the kernel's run with its result named), Colsum and ColsumValue
  (the first launch leaves the column sums), Payloads and Matvec (the second launch leaves the dot products),
  KernelValue (the two launches together), RefValue (the reference's host operations read at an entry).
-/
import proofs.«176538_j3556232921949_2_alg».proof.Defs
import proofs.«176538_j3556232921949_2_alg».proof.Proof.Gen.Kernel
import proofs.«176538_j3556232921949_2_alg».proof.Proof.Gen.Kernel.Skeleton
import proofs.«176538_j3556232921949_2_alg».proof.Proof.Gen.Kernel.Launch
import proofs.«176538_j3556232921949_2_alg».proof.Proof.Gen.Kernel.Points
import proofs.«176538_j3556232921949_2_alg».proof.Proof.Gen.Kernel.Frame
import proofs.«176538_j3556232921949_2_alg».proof.Proof.Gen.KernelIdeal
import proofs.«176538_j3556232921949_2_alg».proof.Proof.Gen.KernelIdeal.Skeleton
import proofs.«176538_j3556232921949_2_alg».proof.Proof.Gen.KernelIdeal.Launch
import proofs.«176538_j3556232921949_2_alg».proof.Proof.Gen.KernelIdeal.Points
import proofs.«176538_j3556232921949_2_alg».proof.Proof.Gen.KernelIdeal.Frame
import proofs.«176538_j3556232921949_2_alg».proof.Proof.Gen.ReferenceIdeal
import proofs.«176538_j3556232921949_2_alg».proof.Proof.Gen.Pre_finite_inputs
import proofs.«176538_j3556232921949_2_alg».proof.Proof.Gen.ReferenceIdeal.Run
import proofs.«176538_j3556232921949_2_alg».proof.Proof.Gen.ReferenceIdeal.Read
import proofs.«176538_j3556232921949_2_alg».proof.Proof.Algebra
import proofs.«176538_j3556232921949_2_alg».proof.Proof.Finite
import proofs.«176538_j3556232921949_2_alg».proof.Proof.KernelValue
import proofs.«176538_j3556232921949_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on the two finite arguments, both programs end with the same
    [4096, 1] result: row `b` is the kernel's value on one side and the reference's on the other, equal on finite
    entries. -/
theorem algebraic : Cert.algebraic_KernelIdeal_ReferenceIdeal := by
  intro m ρ m' ρ' hpre hagree
  refine ⟨fun c => Cert.KernelIdeal.Gen.W2 m ρ c (Proc.devRef .tc Cert.KernelIdeal.main_v1),
    Cert.KernelIdeal.Run.run_W2 (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Finite.entries_real _ _ (hpre c)
  rw [Cert.ReferenceIdeal.Read.val_main_v4_eq, (hagree c).1, (hagree c).2]
  funext i
  obtain ⟨b, q, rfl⟩ : ∃ (b : Fin 4096) (q : Fin 1), i = ix2 b q := ⟨i 0, i 1, eq_ix2 i⟩
  rw [Cert.ReferenceIdeal.RefValue.result_apply]
  refine ((Cert.KernelIdeal.KernelValue.result_apply m ρ c b q).trans ?_).symm
  exact Cert.Spec.kernelVal_eq_refVal _ _ _ hx hw b

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
